-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x2 : Shape := ⟨2, ![1, 2]⟩
abbrev S256x2 : Shape := ⟨2, ![256, 2]⟩

abbrev nBuf : Space → Nat
  | .hbm => 124
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S_, .f32⟩
  | .hbm, ⟨107, _⟩ => ⟨S256x64, .f32⟩
  | .hbm, ⟨108, _⟩ => ⟨S100000x1, .i32⟩
  | .hbm, ⟨109, _⟩ => ⟨S256x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S256, .f32⟩
  | .hbm, ⟨114, _⟩ => ⟨S100000x1, .i32⟩
  | .hbm, ⟨115, _⟩ => ⟨S256, .f32⟩
  | .hbm, ⟨116, _⟩ => ⟨S_, .f32⟩
  | .hbm, ⟨117, _⟩ => ⟨S256, .f32⟩
  | .hbm, ⟨118, _⟩ => ⟨S256, .f32⟩
  | .hbm, ⟨119, _⟩ => ⟨S256x1, .f32⟩
  | .hbm, ⟨120, _⟩ => ⟨S256x64, .f32⟩
  | .hbm, ⟨121, _⟩ => ⟨S256x64, .f32⟩
  | .hbm, ⟨122, _⟩ => ⟨S1x2, .f32⟩
  | .hbm, ⟨123, _⟩ => ⟨S256x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S256x64, .f32⟩
  | .local _ .vmem, ⟨23, _⟩ => ⟨S64x2, .f32⟩
  | .local _ .vmem, ⟨24, _⟩ => ⟨S1x2, .f32⟩
  | .local _ .vmem, ⟨25, _⟩ => ⟨S256x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S2_S1x2 : S2.ShapeCasts S1x2
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x2.size a ≤ S256x2.size a
  hwx4_3 : ∀ i : grid4.Coords, EltTy.bits .f32 = 32 ∨ (Rect.block (s := S256x2) S256x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S256x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S256x64, .f32⟩
  | 119 => ⟨S100000x1, .i32⟩
  | 120 => ⟨S256x64, .f32⟩
  | 121 => ⟨S_, .f32⟩
  | 122 => ⟨S100000, .f32⟩
  | 123 => ⟨S_, .f32⟩
  | 124 => ⟨S256, .f32⟩
  | 125 => ⟨S100000x1, .i32⟩
  | 126 => ⟨S256, .f32⟩
  | 127 => ⟨S_, .f32⟩
  | _ => ⟨S100000x64, .f32⟩

abbrev hbmTy0_1 (i : Nat) : BufTy := match i % 128 with
  | 0 => ⟨S256, .f32⟩
  | 1 => ⟨S256, .f32⟩
  | 2 => ⟨S256x1, .f32⟩
  | 3 => ⟨S256x64, .f32⟩
  | 4 => ⟨S256x64, .f32⟩
  | 5 => ⟨S256x2, .f32⟩
  | 6 => ⟨S1x2, .f32⟩
  | 7 => ⟨S256x2, .f32⟩
  | 8 => ⟨S256x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.Keep.lean ====
/-
  Buffers that a stretch of host operations does not write, and that a region neither reads through a window nor
  writes, hold after it what they held before it. Stated for the buffers the later stages read: the extended edge list's
  two index vectors and the edge weights (computed before the first region, read by every aggregation) and the
  argument arrays, each back to the launch memory.
-/
import proofs.«176493_j81621558493696_1_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem

/-- No operation of the stretch writes the buffer: compared reference by reference. -/
macro "host_keeps" : tactic => `(tactic| exact StableHlo.after_of_forall_not_mem _ _ (List.forall_iff_forall_mem.mp (by
    simp only [hostOps0, hostOps0_1, hostOps0_2, hostOps1, hostOps2, hostOps3, hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

/-- `main_v3` is as region 0 found it when the later aggregations read it. -/
theorem at4_main_v3 : W4 m ρ c (Proc.devRef .tc main_v3) = W3 m ρ c (Proc.devRef .tc main_v3) := (W4_of_ne m ρ c main_v3 (by decide))
theorem at6_main_v3 : W6 m ρ c (Proc.devRef .tc main_v3) = W3 m ρ c (Proc.devRef .tc main_v3) :=
  (W6_of_ne m ρ c main_v3 (by decide)).trans ((by host_keeps : W5 m ρ c (Proc.devRef .tc main_v3) = W4 m ρ c (Proc.devRef .tc main_v3)).trans (at4_main_v3 m ρ c))
theorem at8_main_v3 : W8 m ρ c (Proc.devRef .tc main_v3) = W3 m ρ c (Proc.devRef .tc main_v3) :=
  (W8_of_ne m ρ c main_v3 (by decide)).trans ((by host_keeps : W7 m ρ c (Proc.devRef .tc main_v3) = W6 m ρ c (Proc.devRef .tc main_v3)).trans (at6_main_v3 m ρ c))
/-- `main_v6` is as region 0 found it when the later aggregations read it. -/
theorem at4_main_v6 : W4 m ρ c (Proc.devRef .tc main_v6) = W3 m ρ c (Proc.devRef .tc main_v6) := (W4_of_ne m ρ c main_v6 (by decide))
theorem at6_main_v6 : W6 m ρ c (Proc.devRef .tc main_v6) = W3 m ρ c (Proc.devRef .tc main_v6) :=
  (W6_of_ne m ρ c main_v6 (by decide)).trans ((by host_keeps : W5 m ρ c (Proc.devRef .tc main_v6) = W4 m ρ c (Proc.devRef .tc main_v6)).trans (at4_main_v6 m ρ c))
theorem at8_main_v6 : W8 m ρ c (Proc.devRef .tc main_v6) = W3 m ρ c (Proc.devRef .tc main_v6) :=
  (W8_of_ne m ρ c main_v6 (by decide)).trans ((by host_keeps : W7 m ρ c (Proc.devRef .tc main_v6) = W6 m ρ c (Proc.devRef .tc main_v6)).trans (at6_main_v6 m ρ c))
/-- `main_v29` is as region 0 found it when the later aggregations read it. -/
theorem at4_main_v29 : W4 m ρ c (Proc.devRef .tc main_v29) = W3 m ρ c (Proc.devRef .tc main_v29) := (W4_of_ne m ρ c main_v29 (by decide))
theorem at6_main_v29 : W6 m ρ c (Proc.devRef .tc main_v29) = W3 m ρ c (Proc.devRef .tc main_v29) :=
  (W6_of_ne m ρ c main_v29 (by decide)).trans ((by host_keeps : W5 m ρ c (Proc.devRef .tc main_v29) = W4 m ρ c (Proc.devRef .tc main_v29)).trans (at4_main_v29 m ρ c))
theorem at8_main_v29 : W8 m ρ c (Proc.devRef .tc main_v29) = W3 m ρ c (Proc.devRef .tc main_v29) :=
  (W8_of_ne m ρ c main_v29 (by decide)).trans ((by host_keeps : W7 m ρ c (Proc.devRef .tc main_v29) = W6 m ρ c (Proc.devRef .tc main_v29)).trans (at6_main_v29 m ρ c))
/-- `main_arg0` still holds its launch contents where it is read (boundary 3). -/
theorem arg0 : W3 m ρ c (Proc.devRef .tc main_arg0) = m ((c : Thread nD τ).loc main_arg0) :=
  ((by host_keeps : W3 m ρ c (Proc.devRef .tc main_arg0) = W2 m ρ c (Proc.devRef .tc main_arg0)).trans
    ((by host_keeps : W2 m ρ c (Proc.devRef .tc main_arg0) = W1 m ρ c (Proc.devRef .tc main_arg0)).trans
    ((by host_keeps : W1 m ρ c (Proc.devRef .tc main_arg0) = W0 m ρ c (Proc.devRef .tc main_arg0)).trans
    (rfl : W0 m ρ c (Proc.devRef .tc main_arg0) = m ((c : Thread nD τ).loc main_arg0)))))
/-- `main_arg3` still holds its launch contents where it is read (boundary 3). -/
theorem arg3 : W3 m ρ c (Proc.devRef .tc main_arg3) = m ((c : Thread nD τ).loc main_arg3) :=
  ((by host_keeps : W3 m ρ c (Proc.devRef .tc main_arg3) = W2 m ρ c (Proc.devRef .tc main_arg3)).trans
    ((by host_keeps : W2 m ρ c (Proc.devRef .tc main_arg3) = W1 m ρ c (Proc.devRef .tc main_arg3)).trans
    ((by host_keeps : W1 m ρ c (Proc.devRef .tc main_arg3) = W0 m ρ c (Proc.devRef .tc main_arg3)).trans
    (rfl : W0 m ρ c (Proc.devRef .tc main_arg3) = m ((c : Thread nD τ).loc main_arg3)))))
/-- `main_arg4` still holds its launch contents where it is read (boundary 4). -/
theorem arg4 : W4 m ρ c (Proc.devRef .tc main_arg4) = m ((c : Thread nD τ).loc main_arg4) :=
  ((W4_of_ne m ρ c main_arg4 (by decide)).trans
    ((by host_keeps : W3 m ρ c (Proc.devRef .tc main_arg4) = W2 m ρ c (Proc.devRef .tc main_arg4)).trans
    ((by host_keeps : W2 m ρ c (Proc.devRef .tc main_arg4) = W1 m ρ c (Proc.devRef .tc main_arg4)).trans
    ((by host_keeps : W1 m ρ c (Proc.devRef .tc main_arg4) = W0 m ρ c (Proc.devRef .tc main_arg4)).trans
    (rfl : W0 m ρ c (Proc.devRef .tc main_arg4) = m ((c : Thread nD τ).loc main_arg4))))))
/-- `main_arg5` still holds its launch contents where it is read (boundary 5). -/
theorem arg5 : W5 m ρ c (Proc.devRef .tc main_arg5) = m ((c : Thread nD τ).loc main_arg5) :=
  ((by host_keeps : W5 m ρ c (Proc.devRef .tc main_arg5) = W4 m ρ c (Proc.devRef .tc main_arg5)).trans
    ((W4_of_ne m ρ c main_arg5 (by decide)).trans
    ((by host_keeps : W3 m ρ c (Proc.devRef .tc main_arg5) = W2 m ρ c (Proc.devRef .tc main_arg5)).trans
    ((by host_keeps : W2 m ρ c (Proc.devRef .tc main_arg5) = W1 m ρ c (Proc.devRef .tc main_arg5)).trans
    ((by host_keeps : W1 m ρ c (Proc.devRef .tc main_arg5) = W0 m ρ c (Proc.devRef .tc main_arg5)).trans
    (rfl : W0 m ρ c (Proc.devRef .tc main_arg5) = m ((c : Thread nD τ).loc main_arg5)))))))
/-- `main_arg6` still holds its launch contents where it is read (boundary 6). -/
theorem arg6 : W6 m ρ c (Proc.devRef .tc main_arg6) = m ((c : Thread nD τ).loc main_arg6) :=
  ((W6_of_ne m ρ c main_arg6 (by decide)).trans
    ((by host_keeps : W5 m ρ c (Proc.devRef .tc main_arg6) = W4 m ρ c (Proc.devRef .tc main_arg6)).trans
    ((W4_of_ne m ρ c main_arg6 (by decide)).trans
    ((by host_keeps : W3 m ρ c (Proc.devRef .tc main_arg6) = W2 m ρ c (Proc.devRef .tc main_arg6)).trans
    ((by host_keeps : W2 m ρ c (Proc.devRef .tc main_arg6) = W1 m ρ c (Proc.devRef .tc main_arg6)).trans
    ((by host_keeps : W1 m ρ c (Proc.devRef .tc main_arg6) = W0 m ρ c (Proc.devRef .tc main_arg6)).trans
    (rfl : W0 m ρ c (Proc.devRef .tc main_arg6) = m ((c : Thread nD τ).loc main_arg6))))))))
/-- `main_arg7` still holds its launch contents where it is read (boundary 7). -/
theorem arg7 : W7 m ρ c (Proc.devRef .tc main_arg7) = m ((c : Thread nD τ).loc main_arg7) :=
  ((by host_keeps : W7 m ρ c (Proc.devRef .tc main_arg7) = W6 m ρ c (Proc.devRef .tc main_arg7)).trans
    ((W6_of_ne m ρ c main_arg7 (by decide)).trans
    ((by host_keeps : W5 m ρ c (Proc.devRef .tc main_arg7) = W4 m ρ c (Proc.devRef .tc main_arg7)).trans
    ((W4_of_ne m ρ c main_arg7 (by decide)).trans
    ((by host_keeps : W3 m ρ c (Proc.devRef .tc main_arg7) = W2 m ρ c (Proc.devRef .tc main_arg7)).trans
    ((by host_keeps : W2 m ρ c (Proc.devRef .tc main_arg7) = W1 m ρ c (Proc.devRef .tc main_arg7)).trans
    ((by host_keeps : W1 m ρ c (Proc.devRef .tc main_arg7) = W0 m ρ c (Proc.devRef .tc main_arg7)).trans
    (rfl : W0 m ρ c (Proc.devRef .tc main_arg7) = m ((c : Thread nD τ).loc main_arg7)))))))))
/-- `main_arg8` still holds its launch contents where it is read (boundary 8). -/
theorem arg8 : W8 m ρ c (Proc.devRef .tc main_arg8) = m ((c : Thread nD τ).loc main_arg8) :=
  ((W8_of_ne m ρ c main_arg8 (by decide)).trans
    ((by host_keeps : W7 m ρ c (Proc.devRef .tc main_arg8) = W6 m ρ c (Proc.devRef .tc main_arg8)).trans
    ((W6_of_ne m ρ c main_arg8 (by decide)).trans
    ((by host_keeps : W5 m ρ c (Proc.devRef .tc main_arg8) = W4 m ρ c (Proc.devRef .tc main_arg8)).trans
    ((W4_of_ne m ρ c main_arg8 (by decide)).trans
    ((by host_keeps : W3 m ρ c (Proc.devRef .tc main_arg8) = W2 m ρ c (Proc.devRef .tc main_arg8)).trans
    ((by host_keeps : W2 m ρ c (Proc.devRef .tc main_arg8) = W1 m ρ c (Proc.devRef .tc main_arg8)).trans
    ((by host_keeps : W1 m ρ c (Proc.devRef .tc main_arg8) = W0 m ρ c (Proc.devRef .tc main_arg8)).trans
    (rfl : W0 m ρ c (Proc.devRef .tc main_arg8) = m ((c : Thread nD τ).loc main_arg8))))))))))
/-- `main_arg2` still holds its launch contents where it is read (boundary 10). -/
theorem arg2 : W10 m ρ c (Proc.devRef .tc main_arg2) = m ((c : Thread nD τ).loc main_arg2) :=
  ((W10_of_ne m ρ c main_arg2 (by decide)).trans
    ((by host_keeps : W9 m ρ c (Proc.devRef .tc main_arg2) = W8 m ρ c (Proc.devRef .tc main_arg2)).trans
    ((W8_of_ne m ρ c main_arg2 (by decide)).trans
    ((by host_keeps : W7 m ρ c (Proc.devRef .tc main_arg2) = W6 m ρ c (Proc.devRef .tc main_arg2)).trans
    ((W6_of_ne m ρ c main_arg2 (by decide)).trans
    ((by host_keeps : W5 m ρ c (Proc.devRef .tc main_arg2) = W4 m ρ c (Proc.devRef .tc main_arg2)).trans
    ((W4_of_ne m ρ c main_arg2 (by decide)).trans
    ((by host_keeps : W3 m ρ c (Proc.devRef .tc main_arg2) = W2 m ρ c (Proc.devRef .tc main_arg2)).trans
    ((by host_keeps : W2 m ρ c (Proc.devRef .tc main_arg2) = W1 m ρ c (Proc.devRef .tc main_arg2)).trans
    ((by host_keeps : W1 m ρ c (Proc.devRef .tc main_arg2) = W0 m ρ c (Proc.devRef .tc main_arg2)).trans
    (rfl : W0 m ρ c (Proc.devRef .tc main_arg2) = m ((c : Thread nD τ).loc main_arg2))))))))))))
/-- `main_arg10` still holds its launch contents where it is read (boundary 10). -/
theorem arg10 : W10 m ρ c (Proc.devRef .tc main_arg10) = m ((c : Thread nD τ).loc main_arg10) :=
  ((W10_of_ne m ρ c main_arg10 (by decide)).trans
    ((by host_keeps : W9 m ρ c (Proc.devRef .tc main_arg10) = W8 m ρ c (Proc.devRef .tc main_arg10)).trans
    ((W8_of_ne m ρ c main_arg10 (by decide)).trans
    ((by host_keeps : W7 m ρ c (Proc.devRef .tc main_arg10) = W6 m ρ c (Proc.devRef .tc main_arg10)).trans
    ((W6_of_ne m ρ c main_arg10 (by decide)).trans
    ((by host_keeps : W5 m ρ c (Proc.devRef .tc main_arg10) = W4 m ρ c (Proc.devRef .tc main_arg10)).trans
    ((W4_of_ne m ρ c main_arg10 (by decide)).trans
    ((by host_keeps : W3 m ρ c (Proc.devRef .tc main_arg10) = W2 m ρ c (Proc.devRef .tc main_arg10)).trans
    ((by host_keeps : W2 m ρ c (Proc.devRef .tc main_arg10) = W1 m ρ c (Proc.devRef .tc main_arg10)).trans
    ((by host_keeps : W1 m ρ c (Proc.devRef .tc main_arg10) = W0 m ρ c (Proc.devRef .tc main_arg10)).trans
    (rfl : W0 m ρ c (Proc.devRef .tc main_arg10) = m ((c : Thread nD τ).loc main_arg10))))))))))))
/-- `main_arg9` still holds its launch contents where it is read (boundary 11). -/
theorem arg9 : W11 m ρ c (Proc.devRef .tc main_arg9) = m ((c : Thread nD τ).loc main_arg9) :=
  ((by host_keeps : W11 m ρ c (Proc.devRef .tc main_arg9) = W10 m ρ c (Proc.devRef .tc main_arg9)).trans
    ((W10_of_ne m ρ c main_arg9 (by decide)).trans
    ((by host_keeps : W9 m ρ c (Proc.devRef .tc main_arg9) = W8 m ρ c (Proc.devRef .tc main_arg9)).trans
    ((W8_of_ne m ρ c main_arg9 (by decide)).trans
    ((by host_keeps : W7 m ρ c (Proc.devRef .tc main_arg9) = W6 m ρ c (Proc.devRef .tc main_arg9)).trans
    ((W6_of_ne m ρ c main_arg9 (by decide)).trans
    ((by host_keeps : W5 m ρ c (Proc.devRef .tc main_arg9) = W4 m ρ c (Proc.devRef .tc main_arg9)).trans
    ((W4_of_ne m ρ c main_arg9 (by decide)).trans
    ((by host_keeps : W3 m ρ c (Proc.devRef .tc main_arg9) = W2 m ρ c (Proc.devRef .tc main_arg9)).trans
    ((by host_keeps : W2 m ρ c (Proc.devRef .tc main_arg9) = W1 m ρ c (Proc.devRef .tc main_arg9)).trans
    ((by host_keeps : W1 m ρ c (Proc.devRef .tc main_arg9) = W0 m ρ c (Proc.devRef .tc main_arg9)).trans
    (rfl : W0 m ρ c (Proc.devRef .tc main_arg9) = m ((c : Thread nD τ).loc main_arg9)))))))))))))
/-- `main_v3` is not written by the second and third stretches. -/
theorem at2_main_v3 : W2 m ρ c (Proc.devRef .tc main_v3) = W1 m ρ c (Proc.devRef .tc main_v3) := by host_keeps
theorem at3_main_v3 : W3 m ρ c (Proc.devRef .tc main_v3) = W1 m ρ c (Proc.devRef .tc main_v3) :=
  (by host_keeps : W3 m ρ c (Proc.devRef .tc main_v3) = W2 m ρ c (Proc.devRef .tc main_v3)).trans (at2_main_v3 m ρ c)
/-- `main_v6` is not written by the second and third stretches. -/
theorem at2_main_v6 : W2 m ρ c (Proc.devRef .tc main_v6) = W1 m ρ c (Proc.devRef .tc main_v6) := by host_keeps
theorem at3_main_v6 : W3 m ρ c (Proc.devRef .tc main_v6) = W1 m ρ c (Proc.devRef .tc main_v6) :=
  (by host_keeps : W3 m ρ c (Proc.devRef .tc main_v6) = W2 m ρ c (Proc.devRef .tc main_v6)).trans (at2_main_v6 m ρ c)

end Cert.KernelIdeal.Keep

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«176493_j81621558493696_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«176493_j81621558493696_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.Stages.lean ====
/-
  The stages of the graph network that run outside the dense layers, as whole-array functions over the extended reals,
  and the network itself as their composition.
  The edge list is extended by one self loop per node (`src`, `dst`: the two rows of the edge array, each followed by
  0 … 99999). A node's degree counts the edges that end at it; `norm` weights edge `e` by
  `deg(src e)^(-1/2) · deg(dst e)^(-1/2)` (zero where a degree is not positive). `aggregate` sends, along every edge,
  the source node's feature row times the edge's weight, and sums what arrives at each node. `meanPool` sums the node
  rows of each graph of the batch and divides by the graph's node count (at least one).
  The network: three aggregation layers — the first applied to `x · W0`, the next two to `relu (previous + b) · W` —,
  the last bias, the mean pool, and the affine head.
-/
import proofs.«176493_j81621558493696_1_alg».proof.Proof.Gen.KernelIdeal
import proofs.«176493_j81621558493696_1_alg».proof.Proof.LibRowBlocks

noncomputable section

namespace Cert.KernelIdeal.Stages

open Cert.KernelIdeal Cert.KernelIdeal.Gen Idealize.ShloMosaic
open Idealize.ShloMosaic.ValueIdx Cert.LayoutLib Cert.DenseLib Cert.RowBlocks

/-- Integer and float arrays of a shape, over the extended reals. -/
abbrev IArr (s : Shape) := IVec s 32
abbrev FArr (s : Shape) := FVec Ideal s .f32

/-- Row `r` of the edge array followed by the self loops 0 … 99999. -/
def src (ei : IArr S2x1600000) : IArr S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def dst (ei : IArr S2x1600000) : IArr S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- Node numbers as a column of start indices, a negative one counted from the end. -/
def wrap (v : IArr S1700000) : IArr S1700000x1 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- How many edges end at each node. -/
def degree (d : IArr S1700000) : FArr S100000 :=
  Host.scatterAdd (F := Ideal) (φ := .f32) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))

/-- `deg^(-1/2)` where the degree is positive, zero elsewhere. -/
def invSqrtDeg (d : IArr S1700000) : FArr S100000 :=
  select (cmpf (F := Ideal) (φ := .f32) .ogt (degree d) (broadcastInDim S100000 ![] bcast_S_S100000 (constant (F := Ideal) S_ .f32 0x00000000#32))) (Host.rsqrt (F := Ideal) (φ := .f32) (degree d)) (broadcastInDim S100000 ![] bcast_S_S100000 (id (constant (F := Ideal) S_ .f32 0x00000000#32)))

/-- The weight of each edge. -/
def norm (ei : IArr S2x1600000) : FArr S1700000 :=
  mulf (Host.gather gather_S100000_S1700000x1_S1700000_n_0_n_n_0_1_1 (invSqrtDeg (dst ei)) (wrap (src ei))) (Host.gather gather_S100000_S1700000x1_S1700000_n_0_n_n_0_1_1 (invSqrtDeg (dst ei)) (wrap (dst ei)))

/-- Along every edge the source's row times the edge's weight, summed at the target. -/
def aggregate (s d : IArr S1700000) (n : FArr S1700000) (h : FArr S100000x64) : FArr S100000x64 :=
  Host.scatterAdd (F := Ideal) (φ := .f32) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 n)))

/-- The mean of the node rows of each graph. -/
def meanPool (batch : IArr S100000) (h : FArr S100000x64) : FArr S256x64 :=
  Host.divf (F := Ideal) (φ := .f32) (Host.scatterAdd (F := Ideal) (φ := .f32) scatter_S256x64_S100000x1_S100000x64_1_0_0_1 (broadcastInDim S256x64 ![] bcast_S_S256x64 (constant (F := Ideal) S_ .f32 0x00000000#32)) (broadcastInDim S100000x1 ![0] bcast_S100000_S100000x1_0 batch) h) (broadcastInDim S256x64 ![0, 1] bcast_S256x1_S256x64_0_1 (broadcastInDim S256x1 ![0] bcast_S256_S256x1_0 (maximumf (Host.scatterAdd (F := Ideal) (φ := .f32) scatter_S256_S100000x1_S100000_n_0_0_1 (broadcastInDim S256 ![] bcast_S_S256 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S256 ![] bcast_S_S256 (constant (F := Ideal) S_ .f32 0x3F800000#32)))))

/-- A vector read entry by entry. -/
def entries {n : ℕ} (b : (⟨1, ![n]⟩ : Shape).Idx → EReal) : Fin n → EReal := fun q => b (ix1 q)

/-- The whole network. -/
def network (x : FArr S100000x64) (ei : IArr S2x1600000) (batch : IArr S100000) (W0 : FArr S64x64) (b0 : FArr S64)
    (W1 : FArr S64x64) (b1 : FArr S64) (W2 : FArr S64x64) (b2 : FArr S64) (lW : FArr S64x2) (lb : FArr S2) : FArr S256x2 :=
  affine (M := 256) (K := 64) (N := 2)
    (meanPool batch (biased (M := 100000) (N := 64)
      (aggregate (src ei) (dst ei) (norm ei) (layer (M := 100000) (K := 64) (N := 64)
        (aggregate (src ei) (dst ei) (norm ei) (layer (M := 100000) (K := 64) (N := 64)
          (aggregate (src ei) (dst ei) (norm ei) (mm (M := 100000) (K := 64) (N := 64) x W0))
          (entries b0) W1))
        (entries b1) W2))
      (entries b2)))
    lW (entries lb)

end Cert.KernelIdeal.Stages

end
-- ==== Proof.StageAt.lean ====
/-
  What the stretches of host operations between the regions compute, read off the operation lists: from ANY contents
  of the buffers, the buffer each stretch exists to fill holds the corresponding stage of the network (Stages) applied to
  the contents of the buffers it reads. Before the first region: the extended edge list's sources and targets and the
  edge weights, from the edge array. Between regions: an aggregation of the previous region's output along the edges,
  and the next bias recast as one row. Before the last region: the mean pool of the node rows, and the head's bias as
  one row.
-/
import proofs.«176493_j81621558493696_1_alg».proof.Proof.Gen.KernelIdeal.Frame
import Idealize.ShloMosaic.Lib.StableHlo.Run
import proofs.«176493_j81621558493696_1_alg».proof.Proof.Stages
set_option maxRecDepth 16384

noncomputable section

namespace Cert.KernelIdeal.StageAt

open Cert.KernelIdeal Cert.KernelIdeal.Gen Cert.KernelIdeal.Stages Idealize.ShloMosaic Idealize.ShloMosaic.TcCoe Idealize.SL.Sem
open Idealize.ShloMosaic.StableHlo

variable (Wb : Valuation τ sig (Elt Ideal))

/-- The three stretches before the first region leave the extended edge list's sources in `main_v3`. -/
theorem src_at : after hostOps0_2 (after hostOps0_1 (after hostOps0 Wb)) (Proc.devRef .tc main_v3) = src (Wb (Proc.devRef .tc main_arg1)) := by
  dsimp only [hostOps0, hostOps0_1, hostOps0_2]
  after_results_simp <;> rfl

/-- … its targets in `main_v6`. -/
theorem dst_at : after hostOps0_2 (after hostOps0_1 (after hostOps0 Wb)) (Proc.devRef .tc main_v6) = dst (Wb (Proc.devRef .tc main_arg1)) := by
  dsimp only [hostOps0, hostOps0_1, hostOps0_2]
  after_results_simp <;> rfl

/-- The first stretch leaves the comparison of the degrees against zero in `main_v12` … -/
theorem pos_at : after hostOps0 Wb (Proc.devRef .tc main_v12)
    = cmpf (F := Ideal) (φ := .f32) .ogt (degree (dst (Wb (Proc.devRef .tc main_arg1)))) (broadcastInDim S100000 ![] bcast_S_S100000 (constant (F := Ideal) S_ .f32 0x00000000#32)) := by
  dsimp only [hostOps0]
  after_results_simp <;> rfl

/-- … their inverse square roots in `main_v13` … -/
theorem rsqrt_at : after hostOps0 Wb (Proc.devRef .tc main_v13) = Host.rsqrt (F := Ideal) (φ := .f32) (degree (dst (Wb (Proc.devRef .tc main_arg1)))) := by
  dsimp only [hostOps0]
  after_results_simp <;> rfl

/-- … and a zero in `main_cst_2`. -/
theorem zero_at : after hostOps0 Wb (Proc.devRef .tc main_cst_2) = constant (F := Ideal) S_ .f32 0x00000000#32 := by
  dsimp only [hostOps0]
  after_results_simp <;> rfl

theorem src0_at : after hostOps0 Wb (Proc.devRef .tc main_v3) = src (Wb (Proc.devRef .tc main_arg1)) := by
  dsimp only [hostOps0]
  after_results_simp <;> rfl

theorem dst0_at : after hostOps0 Wb (Proc.devRef .tc main_v6) = dst (Wb (Proc.devRef .tc main_arg1)) := by
  dsimp only [hostOps0]
  after_results_simp <;> rfl

/-- The second stretch (the outlined choice) selects, into `main_v14`, the inverse square root where the degree is positive
    and the zero elsewhere. -/
theorem inv_at : after hostOps0_1 Wb (Proc.devRef .tc main_v14)
    = select (Wb (Proc.devRef .tc main_v12)) (Wb (Proc.devRef .tc main_v13)) (broadcastInDim S100000 ![] bcast_S_S100000 (id (Wb (Proc.devRef .tc main_cst_2)))) := by
  dsimp only [hostOps0_1]
  after_results_simp <;> rfl

/-- The third stretch multiplies, into `main_v29`, the two endpoint factors of every edge. -/
theorem weights_at : after hostOps0_2 Wb (Proc.devRef .tc main_v29)
    = (mulf (Host.gather gather_S100000_S1700000x1_S1700000_n_0_n_n_0_1_1 (Wb (Proc.devRef .tc main_v14) : FVec Ideal S100000 .f32) (wrap (Wb (Proc.devRef .tc main_v3))))
        (Host.gather gather_S100000_S1700000x1_S1700000_n_0_n_n_0_1_1 (Wb (Proc.devRef .tc main_v14) : FVec Ideal S100000 .f32) (wrap (Wb (Proc.devRef .tc main_v6)))) : FVec Ideal S1700000 .f32) := by
  dsimp only [hostOps0_2]
  after_results_simp <;> rfl

/-- No host operation before the first region writes an argument array. -/
theorem arg0_at : after hostOps0_2 (after hostOps0_1 (after hostOps0 Wb)) (Proc.devRef .tc main_arg0) = Wb (Proc.devRef .tc main_arg0) := by
  dsimp only [hostOps0, hostOps0_1, hostOps0_2]
  after_results_simp <;> rfl

theorem arg3_at : after hostOps0_2 (after hostOps0_1 (after hostOps0 Wb)) (Proc.devRef .tc main_arg3) = Wb (Proc.devRef .tc main_arg3) := by
  dsimp only [hostOps0, hostOps0_1, hostOps0_2]
  after_results_simp <;> rfl

/-- The stretch after region 0 aggregates its output `main_v30` into `main_v43` … -/
theorem agg1_at : after hostOps1 Wb (Proc.devRef .tc main_v43)
    = aggregate (Wb (Proc.devRef .tc main_v3)) (Wb (Proc.devRef .tc main_v6)) (Wb (Proc.devRef .tc main_v29)) (Wb (Proc.devRef .tc main_v30)) := by
  dsimp only [hostOps1]
  after_results_simp <;> rfl

/-- … and lays the first bias out as one row. -/
theorem bias1_at : after hostOps1 Wb (Proc.devRef .tc main_v44) = shapeCast S1x64 (Wb (Proc.devRef .tc main_arg4)) shapeCasts_S64_S1x64 := by
  dsimp only [hostOps1]
  after_results_simp <;> rfl

theorem agg2_at : after hostOps2 Wb (Proc.devRef .tc main_v58)
    = aggregate (Wb (Proc.devRef .tc main_v3)) (Wb (Proc.devRef .tc main_v6)) (Wb (Proc.devRef .tc main_v29)) (Wb (Proc.devRef .tc main_v45)) := by
  dsimp only [hostOps2]
  after_results_simp <;> rfl

theorem bias2_at : after hostOps2 Wb (Proc.devRef .tc main_v59) = shapeCast S1x64 (Wb (Proc.devRef .tc main_arg6)) shapeCasts_S64_S1x64 := by
  dsimp only [hostOps2]
  after_results_simp <;> rfl

theorem agg3_at : after hostOps3 Wb (Proc.devRef .tc main_v73)
    = aggregate (Wb (Proc.devRef .tc main_v3)) (Wb (Proc.devRef .tc main_v6)) (Wb (Proc.devRef .tc main_v29)) (Wb (Proc.devRef .tc main_v60)) := by
  dsimp only [hostOps3]
  after_results_simp <;> rfl

theorem bias3_at : after hostOps3 Wb (Proc.devRef .tc main_v74) = shapeCast S1x64 (Wb (Proc.devRef .tc main_arg8)) shapeCasts_S64_S1x64 := by
  dsimp only [hostOps3]
  after_results_simp <;> rfl

/-- The stretch after region 3 pools its output `main_v75` by graph into `main_v87` … -/
theorem pool_at : after hostOps4 Wb (Proc.devRef .tc main_v87) = meanPool (Wb (Proc.devRef .tc main_arg2)) (Wb (Proc.devRef .tc main_v75)) := by
  dsimp only [hostOps4]
  after_results_simp <;> rfl

/-- … and lays the head's bias out as one row. -/
theorem bias4_at : after hostOps4 Wb (Proc.devRef .tc main_v88) = shapeCast S1x2 (Wb (Proc.devRef .tc main_arg10)) shapeCasts_S2_S1x2 := by
  dsimp only [hostOps4]
  after_results_simp <;> rfl

/-- The head's weights are not written by the last stretch. -/
theorem arg9_at : after hostOps4 Wb (Proc.devRef .tc main_arg9) = Wb (Proc.devRef .tc main_arg9) := by
  dsimp only [hostOps4]
  after_results_simp <;> rfl

end Cert.KernelIdeal.StageAt

end
-- ==== Proof.Region0.lean ====
/-
  The first region: the node features times the first weight matrix, computed ten thousand rows at a time.
  Read as one function of the two arrays the region finds: the product of the whole feature array with the weights.
-/
import proofs.«176493_j81621558493696_1_alg».proof.Proof.Gen.KernelIdeal.Frame
import proofs.«176493_j81621558493696_1_alg».proof.Proof.LibRowBlocks
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.LayoutLib Cert.DenseLib Cert.RowBlocks

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads, as a whole-block function (a change of float format is the identity on
    the extended reals; a product accumulated into zeros is the product). -/
theorem pay_eq (x0 : Vec Ideal S10000x64 .f32) (x1 : Vec Ideal S64x64 .f32) : k0_pay1 (F := Ideal) x0 x1 = mm (M := 10000) (K := 64) (N := 64) x0 x1 := by
  unfold k0_pay1
  exact matmul_eq_mm _ rfl _ _

/-- The block indices over the grid: the row-block windows sit at block `(t, 0)`, the whole-array windows at `(0, 0)`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `10000 t … 10000 t + 9999` of the whole-array function: a row of the result depends
    on that row of the input only. -/
theorem flushed_eq (c : Dev nD) (t : Fin cfg0.N) :
    (dat0 V c).flushed 2 t = ((cfg0.win 2).blk t).view.read (Elt Ideal) (mm (M := 100000) (K := 64) (N := 64) (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  rw [pay_eq]
  obtain ⟨a0, a1, w0, w1, o0, o1⟩ := idx t
  funext j
  show (mm (M := 10000) (K := 64) (N := 64) (iblk0 V c 0 t) (iblk0 V c 1 t)) j = (mm (M := 100000) (K := 64) (N := 64) (V c main_arg0) (V c main_arg3)) (((cfg0.win 2).blk t).view.emb j)
  have hw : (iblk0 V c 1 t : S64x64.Idx → EReal) = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  have hq : (j 1).val = ((((cfg0.win 2).blk t).view.emb j) 1).val := by
    show (j 1).val = win0_2.index t (1 : Fin 2) * 64 + 1 * (j 1).val; omega
  have hx : ∀ k : Fin 64, iblk0 V c 0 t (ix2 (n0 := 10000) (j 0) k) = V c main_arg0 (ix2 (n0 := 100000) ((((cfg0.win 2).blk t).view.emb j) 0) k) := by
    intro k
    show V c main_arg0 (((cfg0.win 0).blk t).view.emb (ix2 (n0 := 10000) (j 0) k)) = V c main_arg0 (ix2 (n0 := 100000) ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  exact mm_eq_of_row (M := 100000) (M' := 10000) (K := 64) (N := 64) (iblk0 V c 0 t) (iblk0 V c 1 t) (V c main_arg0) (V c main_arg3) j (((cfg0.win 2).blk t).view.emb j) hw hq hx

/-- An index of the array lies in point `t`'s block iff each coordinate lies in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every block of ten thousand rows is some point's. -/
theorem onto : ∀ q : Fin 10, ∃ t : Fin cfg0.N, win0_2.index t = ![q.val, 0] :=
  (by decide +kernel : ∀ q : Fin 10, ∃ t : Fin grid0.N, win0_2.index t = ![q.val, 0])

/-- The ten blocks tile the hundred thousand rows: row `r` is in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: one function of the arrays the region finds. -/
theorem final (c : Dev nD) : (dat0 V c).arrAt 2 cfg0.N = mm (M := 100000) (K := 64) (N := 64) (V c main_arg0) (V c main_arg3) :=
  (dat0 V c).arrAt_eq_of_cover 2 _ (fun t _ => flushed_eq V c t) cover

end Cert.KernelIdeal.Region0

end
-- ==== Proof.Region1.lean ====
/-
  The second region: the first aggregation plus its bias, cut at zero, times the second weight matrix, computed ten
  thousand rows at a time. Read as one function of the arrays the region finds: `relu (A + b) · W` of the whole array.
-/
import proofs.«176493_j81621558493696_1_alg».proof.Proof.Gen.KernelIdeal.Frame
import proofs.«176493_j81621558493696_1_alg».proof.Proof.LibRowBlocks
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.LayoutLib Cert.DenseLib Cert.RowBlocks

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads, as a whole-block function (a change of float format is the identity on
    the extended reals; a product accumulated into zeros is the product). -/
theorem pay_eq (x0 : Vec Ideal S10000x64 .f32) (x1 : Vec Ideal S1x64 .f32) (x2 : Vec Ideal S64x64 .f32) : k1_pay1 (F := Ideal) x0 x1 x2 = layer (M := 10000) (K := 64) (N := 64) x0 (fun q => x1 (ix2 (0 : Fin 1) q)) x2 := by
  unfold k1_pay1 layer
  simp only [shapeCast_self]
  rw [broadcastTo_eq_rows, addf_eq_plus, maximumf_splat_zero]
  exact matmul_eq_mm _ rfl _ _

/-- The block indices over the grid: the row-block windows sit at block `(t, 0)`, the whole-array windows at `(0, 0)`. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is rows `10000 t … 10000 t + 9999` of the whole-array function: a row of the result depends
    on that row of the input only. -/
theorem flushed_eq (c : Dev nD) (t : Fin cfg1.N) :
    (dat1 V c).flushed 3 t = ((cfg1.win 3).blk t).view.read (Elt Ideal) (layer (M := 100000) (K := 64) (N := 64) (V c main_v43) (fun q => V c main_v44 (ix2 (0 : Fin 1) q)) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  rw [pay_eq]
  obtain ⟨a0, a1, b0, b1, w0, w1, o0, o1⟩ := idx t
  funext j
  show (layer (M := 10000) (K := 64) (N := 64) (iblk1 V c 0 t) (fun q => iblk1 V c 1 t (ix2 (0 : Fin 1) q)) (iblk1 V c 2 t)) j = (layer (M := 100000) (K := 64) (N := 64) (V c main_v43) (fun q => V c main_v44 (ix2 (0 : Fin 1) q)) (V c main_arg5)) (((cfg1.win 3).blk t).view.emb j)
  have hw : (iblk1 V c 2 t : S64x64.Idx → EReal) = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have hb : (fun q : Fin 64 => iblk1 V c 1 t (ix2 (0 : Fin 1) q)) = fun q : Fin 64 => V c main_v44 (ix2 (0 : Fin 1) q) := by
    funext q
    show V c main_v44 (((cfg1.win 1).blk t).view.emb (ix2 (0 : Fin 1) q)) = V c main_v44 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  have hq : (j 1).val = ((((cfg1.win 3).blk t).view.emb j) 1).val := by
    show (j 1).val = win1_3.index t (1 : Fin 2) * 64 + 1 * (j 1).val; omega
  have hx : ∀ k : Fin 64, iblk1 V c 0 t (ix2 (n0 := 10000) (j 0) k) = V c main_v43 (ix2 (n0 := 100000) ((((cfg1.win 3).blk t).view.emb j) 0) k) := by
    intro k
    show V c main_v43 (((cfg1.win 0).blk t).view.emb (ix2 (n0 := 10000) (j 0) k)) = V c main_v43 (ix2 (n0 := 100000) ((((cfg1.win 3).blk t).view.emb j) 0) k)
    refine congrArg _ (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  exact layer_eq_of_row (M := 100000) (M' := 10000) (K := 64) (N := 64) (iblk1 V c 0 t) (fun q => iblk1 V c 1 t (ix2 (0 : Fin 1) q)) (iblk1 V c 2 t) (V c main_v43) (fun q => V c main_v44 (ix2 (0 : Fin 1) q)) (V c main_arg5) j (((cfg1.win 3).blk t).view.emb j) hb hw hq hx

/-- An index of the array lies in point `t`'s block iff each coordinate lies in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Every block of ten thousand rows is some point's. -/
theorem onto : ∀ q : Fin 10, ∃ t : Fin cfg1.N, win1_3.index t = ![q.val, 0] :=
  (by decide +kernel : ∀ q : Fin 10, ∃ t : Fin grid1.N, win1_3.index t = ![q.val, 0])

/-- The ten blocks tile the hundred thousand rows: row `r` is in block `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region: one function of the arrays the region finds. -/
theorem final (c : Dev nD) : (dat1 V c).arrAt 3 cfg1.N = layer (M := 100000) (K := 64) (N := 64) (V c main_v43) (fun q => V c main_v44 (ix2 (0 : Fin 1) q)) (V c main_arg5) :=
  (dat1 V c).arrAt_eq_of_cover 3 _ (fun t _ => flushed_eq V c t) cover

end Cert.KernelIdeal.Region1

end
-- ==== Proof.Region2.lean ====
/-
  The third region: the second aggregation plus its bias, cut at zero, times the third weight matrix, computed ten
  thousand rows at a time. Read as one function of the arrays the region finds: `relu (A + b) · W` of the whole array.
-/
import proofs.«176493_j81621558493696_1_alg».proof.Proof.Gen.KernelIdeal.Frame
import proofs.«176493_j81621558493696_1_alg».proof.Proof.LibRowBlocks
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.LayoutLib Cert.DenseLib Cert.RowBlocks

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads, as a whole-block function (a change of float format is the identity on
    the extended reals; a product accumulated into zeros is the product). -/
theorem pay_eq (x0 : Vec Ideal S10000x64 .f32) (x1 : Vec Ideal S1x64 .f32) (x2 : Vec Ideal S64x64 .f32) : k2_pay1 (F := Ideal) x0 x1 x2 = layer (M := 10000) (K := 64) (N := 64) x0 (fun q => x1 (ix2 (0 : Fin 1) q)) x2 := by
  unfold k2_pay1 layer
  simp only [shapeCast_self]
  rw [broadcastTo_eq_rows, addf_eq_plus, maximumf_splat_zero]
  exact matmul_eq_mm _ rfl _ _

/-- The block indices over the grid: the row-block windows sit at block `(t, 0)`, the whole-array windows at `(0, 0)`. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is rows `10000 t … 10000 t + 9999` of the whole-array function: a row of the result depends
    on that row of the input only. -/
theorem flushed_eq (c : Dev nD) (t : Fin cfg2.N) :
    (dat2 V c).flushed 3 t = ((cfg2.win 3).blk t).view.read (Elt Ideal) (layer (M := 100000) (K := 64) (N := 64) (V c main_v58) (fun q => V c main_v59 (ix2 (0 : Fin 1) q)) (V c main_arg7)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  rw [pay_eq]
  obtain ⟨a0, a1, b0, b1, w0, w1, o0, o1⟩ := idx t
  funext j
  show (layer (M := 10000) (K := 64) (N := 64) (iblk2 V c 0 t) (fun q => iblk2 V c 1 t (ix2 (0 : Fin 1) q)) (iblk2 V c 2 t)) j = (layer (M := 100000) (K := 64) (N := 64) (V c main_v58) (fun q => V c main_v59 (ix2 (0 : Fin 1) q)) (V c main_arg7)) (((cfg2.win 3).blk t).view.emb j)
  have hw : (iblk2 V c 2 t : S64x64.Idx → EReal) = V c main_arg7 := by
    funext y
    show V c main_arg7 (((cfg2.win 2).blk t).view.emb y) = V c main_arg7 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  have hb : (fun q : Fin 64 => iblk2 V c 1 t (ix2 (0 : Fin 1) q)) = fun q : Fin 64 => V c main_v59 (ix2 (0 : Fin 1) q) := by
    funext q
    show V c main_v59 (((cfg2.win 1).blk t).view.emb (ix2 (0 : Fin 1) q)) = V c main_v59 (ix2 (0 : Fin 1) q)
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega
  have hq : (j 1).val = ((((cfg2.win 3).blk t).view.emb j) 1).val := by
    show (j 1).val = win2_3.index t (1 : Fin 2) * 64 + 1 * (j 1).val; omega
  have hx : ∀ k : Fin 64, iblk2 V c 0 t (ix2 (n0 := 10000) (j 0) k) = V c main_v58 (ix2 (n0 := 100000) ((((cfg2.win 3).blk t).view.emb j) 0) k) := by
    intro k
    show V c main_v58 (((cfg2.win 0).blk t).view.emb (ix2 (n0 := 10000) (j 0) k)) = V c main_v58 (ix2 (n0 := 100000) ((((cfg2.win 3).blk t).view.emb j) 0) k)
    refine congrArg _ (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  exact layer_eq_of_row (M := 100000) (M' := 10000) (K := 64) (N := 64) (iblk2 V c 0 t) (fun q => iblk2 V c 1 t (ix2 (0 : Fin 1) q)) (iblk2 V c 2 t) (V c main_v58) (fun q => V c main_v59 (ix2 (0 : Fin 1) q)) (V c main_arg7) j (((cfg2.win 3).blk t).view.emb j) hb hw hq hx

/-- An index of the array lies in point `t`'s block iff each coordinate lies in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v60).slice (win2_3.rect t)).set ↔ _
  rw [View.set_slice_whole, Rect.mem_set_unit]
  exact Iff.rfl

/-- Every block of ten thousand rows is some point's. -/
theorem onto : ∀ q : Fin 10, ∃ t : Fin cfg2.N, win2_3.index t = ![q.val, 0] :=
  (by decide +kernel : ∀ q : Fin 10, ∃ t : Fin grid2.N, win2_3.index t = ![q.val, 0])

/-- The ten blocks tile the hundred thousand rows: row `r` is in block `r / 10000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region: one function of the arrays the region finds. -/
theorem final (c : Dev nD) : (dat2 V c).arrAt 3 cfg2.N = layer (M := 100000) (K := 64) (N := 64) (V c main_v58) (fun q => V c main_v59 (ix2 (0 : Fin 1) q)) (V c main_arg7) :=
  (dat2 V c).arrAt_eq_of_cover 3 _ (fun t _ => flushed_eq V c t) cover

end Cert.KernelIdeal.Region2

end
-- ==== Proof.Region3.lean ====
/-
  The fourth region: the last aggregation plus its bias (no cut), computed ten thousand rows at a time. Read as one
  function of the arrays the region finds: `A + b` of the whole array.
-/
import proofs.«176493_j81621558493696_1_alg».proof.Proof.Gen.KernelIdeal.Frame
import proofs.«176493_j81621558493696_1_alg».proof.Proof.LibRowBlocks
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.LayoutLib Cert.DenseLib Cert.RowBlocks

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads, as a whole-block function (a change of float format is the identity on
    the extended reals; a product accumulated into zeros is the product). -/
theorem pay_eq (x0 : Vec Ideal S10000x64 .f32) (x1 : Vec Ideal S1x64 .f32) : k3_pay1 (F := Ideal) x0 x1 = biased (M := 10000) (N := 64) x0 (fun q => x1 (ix2 (0 : Fin 1) q)) := by
  unfold k3_pay1 biased
  simp only [shapeCast_self]
  rw [broadcastTo_eq_rows, addf_eq_plus]

/-- The block indices over the grid: the row-block windows sit at block `(t, 0)`, the whole-array windows at `(0, 0)`. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is rows `10000 t … 10000 t + 9999` of the whole-array function: a row of the result depends
    on that row of the input only. -/
theorem flushed_eq (c : Dev nD) (t : Fin cfg3.N) :
    (dat3 V c).flushed 2 t = ((cfg3.win 2).blk t).view.read (Elt Ideal) (biased (M := 100000) (N := 64) (V c main_v73) (fun q => V c main_v74 (ix2 (0 : Fin 1) q))) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay_eq]
  obtain ⟨a0, a1, b0, b1, o0, o1⟩ := idx t
  funext j
  show (biased (M := 10000) (N := 64) (iblk3 V c 0 t) (fun q => iblk3 V c 1 t (ix2 (0 : Fin 1) q))) j = (biased (M := 100000) (N := 64) (V c main_v73) (fun q => V c main_v74 (ix2 (0 : Fin 1) q))) (((cfg3.win 2).blk t).view.emb j)
  have hb : (fun q : Fin 64 => iblk3 V c 1 t (ix2 (0 : Fin 1) q)) = fun q : Fin 64 => V c main_v74 (ix2 (0 : Fin 1) q) := by
    funext q
    show V c main_v74 (((cfg3.win 1).blk t).view.emb (ix2 (0 : Fin 1) q)) = V c main_v74 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  have hq : (j 1).val = ((((cfg3.win 2).blk t).view.emb j) 1).val := by
    show (j 1).val = win3_2.index t (1 : Fin 2) * 64 + 1 * (j 1).val; omega
  have hx : iblk3 V c 0 t j = V c main_v73 (((cfg3.win 2).blk t).view.emb j) := by
    show V c main_v73 (((cfg3.win 0).blk t).view.emb j) = V c main_v73 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  exact biased_eq_of_entry (M := 100000) (M' := 10000) (N := 64) (iblk3 V c 0 t) (fun q => iblk3 V c 1 t (ix2 (0 : Fin 1) q)) (V c main_v73) (fun q => V c main_v74 (ix2 (0 : Fin 1) q)) j (((cfg3.win 2).blk t).view.emb j) hb hq hx

/-- An index of the array lies in point `t`'s block iff each coordinate lies in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v75).slice (win3_2.rect t)).set ↔ _
  rw [View.set_slice_whole, Rect.mem_set_unit]
  exact Iff.rfl

/-- Every block of ten thousand rows is some point's. -/
theorem onto : ∀ q : Fin 10, ∃ t : Fin cfg3.N, win3_2.index t = ![q.val, 0] :=
  (by decide +kernel : ∀ q : Fin 10, ∃ t : Fin grid3.N, win3_2.index t = ![q.val, 0])

/-- The ten blocks tile the hundred thousand rows: row `r` is in block `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: one function of the arrays the region finds. -/
theorem final (c : Dev nD) : (dat3 V c).arrAt 2 cfg3.N = biased (M := 100000) (N := 64) (V c main_v73) (fun q => V c main_v74 (ix2 (0 : Fin 1) q)) :=
  (dat3 V c).arrAt_eq_of_cover 2 _ (fun t _ => flushed_eq V c t) cover

end Cert.KernelIdeal.Region3

end
-- ==== Proof.Region4.lean ====
/-
  The last region: the pooled rows times the head's weight matrix plus its bias, in one grid point over whole arrays.
  Read as one function of the arrays the region finds: `P · W + b`.
-/
import proofs.«176493_j81621558493696_1_alg».proof.Proof.Gen.KernelIdeal.Frame
import proofs.«176493_j81621558493696_1_alg».proof.Proof.LibRowBlocks
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx Cert.LayoutLib Cert.DenseLib Cert.RowBlocks

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on the blocks it loads, as a whole-block function. -/
theorem pay_eq (x0 : Vec Ideal S256x64 .f32) (x1 : Vec Ideal S64x2 .f32) (x2 : Vec Ideal S1x2 .f32) :
    k4_pay1 (F := Ideal) x0 x1 x2 = affine (M := 256) (K := 64) (N := 2) x0 x1 (fun q => x2 (ix2 (0 : Fin 1) q)) := by
  unfold k4_pay1 affine
  simp only [shapeCast_self]
  rw [broadcastTo_eq_rows, addf_eq_plus]
  refine congrArg (fun z => plus z (rows (M := 256) fun q => x2 (ix2 (0 : Fin 1) q))) ?_
  exact matmul_eq_mm _ rfl _ _

/-- Every window sits at block `(0, 0)` at the one grid point. -/
theorem idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one point writes back is the whole-array function: every block is its whole array. -/
theorem flushed_eq (c : Dev nD) (t : Fin cfg4.N) :
    (dat4 V c).flushed 3 t = ((cfg4.win 3).blk t).view.read (Elt Ideal)
      (affine (M := 256) (K := 64) (N := 2) (V c main_v87) (V c main_arg9) (fun q => V c main_v88 (ix2 (0 : Fin 1) q))) := by
  show (cfg4.win 3).cut (grid4.coords t) ((dat4 V c).after 3 t) = _
  rw [after4_3]
  unfold out4_3
  rw [View.canon_unit_zero hz]
  simp only [View.ld_unit_zero (S := S256x64) hz, View.ld_unit_zero (S := S64x2) hz, View.ld_unit_zero (S := S1x2) hz]
  rw [pay_eq]
  obtain ⟨a0, a1, w0, w1, b0, b1, o0, o1⟩ := idx t
  have h0 : (iblk4 V c 0 t : S256x64.Idx → EReal) = V c main_v87 := by
    funext y
    show V c main_v87 (((cfg4.win 0).blk t).view.emb y) = V c main_v87 y
    refine congrArg _ (funext fun a => Fin.ext ?_)
    match a with
    | ⟨0, _⟩ => show win4_0.index t (0 : Fin 2) * 256 + 1 * (y 0).val = (y 0).val; omega
    | ⟨1, _⟩ => show win4_0.index t (1 : Fin 2) * 64 + 1 * (y 1).val = (y 1).val; omega
  have h1 : (iblk4 V c 1 t : S64x2.Idx → EReal) = V c main_arg9 := by
    funext y
    show V c main_arg9 (((cfg4.win 1).blk t).view.emb y) = V c main_arg9 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 2 + 1 * (y 1).val = (y 1).val; omega
  have h2 : (iblk4 V c 2 t : S1x2.Idx → EReal) = V c main_v88 := by
    funext y
    show V c main_v88 (((cfg4.win 2).blk t).view.emb y) = V c main_v88 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 2 + 1 * (y 1).val = (y 1).val; omega
  funext j
  show affine (M := 256) (K := 64) (N := 2) (iblk4 V c 0 t : S256x64.Idx → EReal) (iblk4 V c 1 t : S64x2.Idx → EReal) (fun q => (iblk4 V c 2 t : S1x2.Idx → EReal) (ix2 (0 : Fin 1) q)) j
    = affine (M := 256) (K := 64) (N := 2) (V c main_v87) (V c main_arg9) (fun q => V c main_v88 (ix2 (0 : Fin 1) q)) (((cfg4.win 3).blk t).view.emb j)
  rw [h0, h1, h2]
  refine congrArg _ (funext fun a => Fin.ext ?_)
  match a with
  | ⟨0, _⟩ => show (j 0).val = win4_3.index t (0 : Fin 2) * 256 + 1 * (j 0).val; omega
  | ⟨1, _⟩ => show (j 1).val = win4_3.index t (1 : Fin 2) * 2 + 1 * (j 1).val; omega

theorem mem_blk (t : Fin cfg4.N) (i : S256x2.Idx) :
    i ∈ ((cfg4.win 3).blk t).view.set ↔ ∀ a : Fin 2, win4_3.index t a * S256x2.size a ≤ (i a).val ∧ (i a).val < win4_3.index t a * S256x2.size a + S256x2.size a := by
  show i ∈ ((View.whole main_v89).slice (win4_3.rect t)).set ↔ _
  rw [View.set_slice_whole, Rect.mem_set_unit]
  exact Iff.rfl

theorem onto : ∃ t : Fin cfg4.N, win4_3.index t = ![0, 0] :=
  (by decide +kernel : ∃ t : Fin grid4.N, win4_3.index t = ![0, 0])

/-- The one block is the whole array. -/
theorem cover (i : S256x2.Idx) : ∃ t : Fin cfg4.N, (cfg4.win 3).flush t = true ∧ i ∈ ((cfg4.win 3).blk t).view.set := by
  have hi0 : (i 0).val < 256 := (i 0).isLt
  have hi1 : (i 1).val < 2 := (i 1).isLt
  obtain ⟨t, ht⟩ := onto
  have q0 : win4_3.index t (0 : Fin 2) = 0 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 256 ≤ (i 0).val ∧ (i 0).val < win4_3.index t (0 : Fin 2) * 256 + 256; omega
  | ⟨1, _⟩ => show win4_3.index t (1 : Fin 2) * 2 ≤ (i 1).val ∧ (i 1).val < win4_3.index t (1 : Fin 2) * 2 + 2; omega

/-- The output array after the region: one function of the arrays the region finds. -/
theorem final (c : Dev nD) : (dat4 V c).arrAt 3 cfg4.N
    = affine (M := 256) (K := 64) (N := 2) (V c main_v87) (V c main_arg9) (fun q => V c main_v88 (ix2 (0 : Fin 1) q)) :=
  (dat4 V c).arrAt_eq_of_cover 3 _ (fun t _ => flushed_eq V c t) cover

end Cert.KernelIdeal.Region4

end
-- ==== Proof.KernelRun.lean ====
/-
  The kernel program's run with its last thread state read in full: every weakly fair execution of @main terminates,
  nothing faulting, in a memory that holds, at every buffer not scoped to a region, the contents the fold through @main's
  segments leaves there (the launch memory pushed through each stretch of host operations and each region's
  write-backs). Any property of the final memory that follows from those contents is therefore a post of the run:
  the frame claim reads the argument arrays there, the value claim the result array.
-/
import proofs.«176493_j81621558493696_1_alg».proof.Proof.Gen.KernelIdeal.Frame

set_option maxRecDepth 16384

noncomputable section

namespace Cert.KernelIdeal.RunAt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with any post that holds of every memory agreeing with the last boundary's contents on the unscoped buffers. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

end Cert.KernelIdeal.RunAt

end
-- ==== Proof.KernelValue.lean ====
/-
  The kernel program's result array as one function of its arguments. Walking the contents of the buffers through @main's
  segments: before the first region the host operations build the extended edge list and the edge weights; each region's
  output array is the dense layer of Region0 … Region4 applied to the arrays the region finds; each stretch between two
  regions aggregates the previous output along the edges and recasts the next bias as one row; the last stretch pools by
  graph. Composed, the result buffer holds `network` of the argument arrays (Stages), and the run's post states it.
-/
import proofs.«176493_j81621558493696_1_alg».proof.Proof.Keep
import proofs.«176493_j81621558493696_1_alg».proof.Proof.StageAt
import proofs.«176493_j81621558493696_1_alg».proof.Proof.Region0
import proofs.«176493_j81621558493696_1_alg».proof.Proof.Region1
import proofs.«176493_j81621558493696_1_alg».proof.Proof.Region2
import proofs.«176493_j81621558493696_1_alg».proof.Proof.Region3
import proofs.«176493_j81621558493696_1_alg».proof.Proof.Region4
import proofs.«176493_j81621558493696_1_alg».proof.Proof.KernelRun

set_option maxRecDepth 16384

noncomputable section

namespace Cert.KernelIdeal.Result

open Cert.KernelIdeal Cert.KernelIdeal.Gen Cert.KernelIdeal.Stages Cert.KernelIdeal.Keep Cert.KernelIdeal.StageAt
open Idealize.ShloMosaic Idealize.ShloMosaic.TcCoe Idealize.SL.Sem
open Idealize.ShloMosaic.ValueIdx Cert.LayoutLib Cert.DenseLib Cert.RowBlocks

theorem layer_congr {M K N : ℕ} {A A' : (⟨2, ![M, K]⟩ : Shape).Idx → EReal} {b b' : Fin K → EReal} {W W' : (⟨2, ![K, N]⟩ : Shape).Idx → EReal}
    (hA : A = A') (hb : b = b') (hW : W = W') : layer A b W = layer A' b' W' := by subst hA hb hW; rfl

theorem biased_congr {M N : ℕ} {A A' : (⟨2, ![M, N]⟩ : Shape).Idx → EReal} {b b' : Fin N → EReal}
    (hA : A = A') (hb : b = b') : biased A b = biased A' b' := by subst hA hb; rfl

theorem affine_congr {M K N : ℕ} {P P' : (⟨2, ![M, K]⟩ : Shape).Idx → EReal} {W W' : (⟨2, ![K, N]⟩ : Shape).Idx → EReal} {b b' : Fin N → EReal}
    (hP : P = P') (hW : W = W') (hb : b = b') : affine P W b = affine P' W' b' := by subst hP hW hb; rfl

theorem mm_congr {M K N : ℕ} {X X' : (⟨2, ![M, K]⟩ : Shape).Idx → EReal} {W W' : (⟨2, ![K, N]⟩ : Shape).Idx → EReal}
    (hX : X = X') (hW : W = W') : mm X W = mm X' W' := by subst hX hW; rfl

/-- A vector recast as one row, read along that row, is the vector's entries. -/
theorem row_entries {n : ℕ} (b : (⟨1, ![n]⟩ : Shape).Idx → EReal) (h : (⟨1, ![n]⟩ : Shape).ShapeCasts ⟨2, ![1, n]⟩) :
    (fun q : Fin n => shapeCast ⟨2, ![1, n]⟩ b h (ix2 (0 : Fin 1) q)) = entries b :=
  funext fun q => shapeCast_vecRow_apply b h 0 q

variable (m : (ℓ : Loc nD τ sig) → Buf (Elt Ideal) ℓ) (ρ : Dev nD → PrngReg) (c : Dev nD)

/-! ## Before the first region -/

theorem src1 : W1 m ρ c (Proc.devRef .tc main_v3) = src (m ((c : Thread nD τ).loc main_arg1)) := src0_at (W0 m ρ c)
theorem dst1 : W1 m ρ c (Proc.devRef .tc main_v6) = dst (m ((c : Thread nD τ).loc main_arg1)) := dst0_at (W0 m ρ c)

theorem src3 : W3 m ρ c (Proc.devRef .tc main_v3) = src (m ((c : Thread nD τ).loc main_arg1)) := (at3_main_v3 m ρ c).trans (src1 m ρ c)
theorem dst3 : W3 m ρ c (Proc.devRef .tc main_v6) = dst (m ((c : Thread nD τ).loc main_arg1)) := (at3_main_v6 m ρ c).trans (dst1 m ρ c)

theorem pos1 : W1 m ρ c (Proc.devRef .tc main_v12)
    = cmpf (F := Ideal) (φ := .f32) .ogt (degree (dst (m ((c : Thread nD τ).loc main_arg1)))) (broadcastInDim S100000 ![] bcast_S_S100000 (constant (F := Ideal) S_ .f32 0x00000000#32)) :=
  pos_at (W0 m ρ c)
theorem rsqrt1 : W1 m ρ c (Proc.devRef .tc main_v13) = Host.rsqrt (F := Ideal) (φ := .f32) (degree (dst (m ((c : Thread nD τ).loc main_arg1)))) := rsqrt_at (W0 m ρ c)
theorem zero1 : W1 m ρ c (Proc.devRef .tc main_cst_2) = constant (F := Ideal) S_ .f32 0x00000000#32 := zero_at (W0 m ρ c)

/-- The inverse square roots of the degrees, zero where the degree is not positive. -/
theorem inv2 : W2 m ρ c (Proc.devRef .tc main_v14) = invSqrtDeg (dst (m ((c : Thread nD τ).loc main_arg1))) :=
  (inv_at (W1 m ρ c)).trans (by
    rw [pos1 m ρ c, rsqrt1 m ρ c, zero1 m ρ c]
    rfl)

/-- The edge weights. -/
theorem norm3 : W3 m ρ c (Proc.devRef .tc main_v29) = Stages.norm (m ((c : Thread nD τ).loc main_arg1)) :=
  (weights_at (W2 m ρ c)).trans (by
    rw [inv2 m ρ c, at2_main_v3 m ρ c, at2_main_v6 m ρ c, src1 m ρ c, dst1 m ρ c]
    rfl)

/-! ## Layer by layer -/

/-- Region 0 leaves `x · W0`. -/
theorem feat0 : W4 m ρ c (Proc.devRef .tc main_v30) = (mm (M := 100000) (K := 64) (N := 64) (m ((c : Thread nD τ).loc main_arg0)) (m ((c : Thread nD τ).loc main_arg3))) :=
  (W4_arr m ρ c 2).trans ((Region0.final (V3 m ρ) c).trans (mm_congr (arg0 m ρ c) (arg3 m ρ c)))

theorem agg1 : W5 m ρ c (Proc.devRef .tc main_v43) = (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) :=
  (agg1_at (W4 m ρ c)).trans (by
    rw [at4_main_v3 m ρ c, at4_main_v6 m ρ c, at4_main_v29 m ρ c, src3 m ρ c, dst3 m ρ c, norm3 m ρ c, feat0 m ρ c])

theorem bias1 : (fun q : Fin 64 => W5 m ρ c (Proc.devRef .tc main_v44) (ix2 (0 : Fin 1) q)) = entries (m ((c : Thread nD τ).loc main_arg4)) := by
  have e : W5 m ρ c (Proc.devRef .tc main_v44) = shapeCast S1x64 (m ((c : Thread nD τ).loc main_arg4)) shapeCasts_S64_S1x64 :=
    (bias1_at (W4 m ρ c)).trans (by rw [arg4 m ρ c])
  rw [e]
  exact row_entries _ _

/-- Region 1 leaves `relu (agg + b0) · W1`. -/
theorem feat1 : W6 m ρ c (Proc.devRef .tc main_v45) = (layer (M := 100000) (K := 64) (N := 64) (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) (entries (m ((c : Thread nD τ).loc main_arg4))) (m ((c : Thread nD τ).loc main_arg5))) :=
  (W6_arr m ρ c 3).trans ((Region1.final (V5 m ρ) c).trans (layer_congr (agg1 m ρ c) (bias1 m ρ c) (arg5 m ρ c)))

theorem agg2 : W7 m ρ c (Proc.devRef .tc main_v58) = (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) (entries (m ((c : Thread nD τ).loc main_arg4))) (m ((c : Thread nD τ).loc main_arg5)))) :=
  (agg2_at (W6 m ρ c)).trans (by
    rw [at6_main_v3 m ρ c, at6_main_v6 m ρ c, at6_main_v29 m ρ c, src3 m ρ c, dst3 m ρ c, norm3 m ρ c, feat1 m ρ c])

theorem bias2 : (fun q : Fin 64 => W7 m ρ c (Proc.devRef .tc main_v59) (ix2 (0 : Fin 1) q)) = entries (m ((c : Thread nD τ).loc main_arg6)) := by
  have e : W7 m ρ c (Proc.devRef .tc main_v59) = shapeCast S1x64 (m ((c : Thread nD τ).loc main_arg6)) shapeCasts_S64_S1x64 :=
    (bias2_at (W6 m ρ c)).trans (by rw [arg6 m ρ c])
  rw [e]
  exact row_entries _ _

/-- Region 2 leaves `relu (agg + b1) · W2`. -/
theorem feat2 : W8 m ρ c (Proc.devRef .tc main_v60) = (layer (M := 100000) (K := 64) (N := 64) (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) (entries (m ((c : Thread nD τ).loc main_arg4))) (m ((c : Thread nD τ).loc main_arg5)))) (entries (m ((c : Thread nD τ).loc main_arg6))) (m ((c : Thread nD τ).loc main_arg7))) :=
  (W8_arr m ρ c 3).trans ((Region2.final (V7 m ρ) c).trans (layer_congr (agg2 m ρ c) (bias2 m ρ c) (arg7 m ρ c)))

theorem agg3 : W9 m ρ c (Proc.devRef .tc main_v73) = (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) (entries (m ((c : Thread nD τ).loc main_arg4))) (m ((c : Thread nD τ).loc main_arg5)))) (entries (m ((c : Thread nD τ).loc main_arg6))) (m ((c : Thread nD τ).loc main_arg7)))) :=
  (agg3_at (W8 m ρ c)).trans (by
    rw [at8_main_v3 m ρ c, at8_main_v6 m ρ c, at8_main_v29 m ρ c, src3 m ρ c, dst3 m ρ c, norm3 m ρ c, feat2 m ρ c])

theorem bias3 : (fun q : Fin 64 => W9 m ρ c (Proc.devRef .tc main_v74) (ix2 (0 : Fin 1) q)) = entries (m ((c : Thread nD τ).loc main_arg8)) := by
  have e : W9 m ρ c (Proc.devRef .tc main_v74) = shapeCast S1x64 (m ((c : Thread nD τ).loc main_arg8)) shapeCasts_S64_S1x64 :=
    (bias3_at (W8 m ρ c)).trans (by rw [arg8 m ρ c])
  rw [e]
  exact row_entries _ _

/-- Region 3 leaves `agg + b2`. -/
theorem feat3 : W10 m ρ c (Proc.devRef .tc main_v75) = (biased (M := 100000) (N := 64) (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) (entries (m ((c : Thread nD τ).loc main_arg4))) (m ((c : Thread nD τ).loc main_arg5)))) (entries (m ((c : Thread nD τ).loc main_arg6))) (m ((c : Thread nD τ).loc main_arg7)))) (entries (m ((c : Thread nD τ).loc main_arg8)))) :=
  (W10_arr m ρ c 2).trans ((Region3.final (V9 m ρ) c).trans (biased_congr (agg3 m ρ c) (bias3 m ρ c)))

theorem pooled : W11 m ρ c (Proc.devRef .tc main_v87) = (meanPool (m ((c : Thread nD τ).loc main_arg2)) (biased (M := 100000) (N := 64) (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (layer (M := 100000) (K := 64) (N := 64) (aggregate (src (m ((c : Thread nD τ).loc main_arg1))) (dst (m ((c : Thread nD τ).loc main_arg1))) (Stages.norm (m ((c : Thread nD τ).loc main_arg1))) (mm (M := 100000) (K := 64) (N := 64) (m ((c : Thread nD τ).loc main_arg0)) (m ((c : Thread nD τ).loc main_arg3)))) (entries (m ((c : Thread nD τ).loc main_arg4))) (m ((c : Thread nD τ).loc main_arg5)))) (entries (m ((c : Thread nD τ).loc main_arg6))) (m ((c : Thread nD τ).loc main_arg7)))) (entries (m ((c : Thread nD τ).loc main_arg8))))) :=
  (pool_at (W10 m ρ c)).trans (by rw [arg2 m ρ c, feat3 m ρ c])

theorem bias4 : (fun q : Fin 2 => W11 m ρ c (Proc.devRef .tc main_v88) (ix2 (0 : Fin 1) q)) = entries (m ((c : Thread nD τ).loc main_arg10)) := by
  have e : W11 m ρ c (Proc.devRef .tc main_v88) = shapeCast S1x2 (m ((c : Thread nD τ).loc main_arg10)) shapeCasts_S2_S1x2 :=
    (bias4_at (W10 m ρ c)).trans (by rw [arg10 m ρ c])
  rw [e]
  exact row_entries _ _

/-- The result buffer at the last boundary holds the network of the arguments. -/
theorem result : W12 m ρ c (Proc.devRef .tc main_v89) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 3).trans ((Region4.final (V11 m ρ) c).trans (affine_congr (pooled m ρ c) (arg9 m ρ c) (bias4 m ρ c)))

/-! ## The run -/

/-- Every weakly fair execution of the kernel program ends with the result array at `network` of the argument arrays,
    the arguments unchanged. -/
theorem run : θ_run defs (onTc (τ := τ) (main (F := Ideal))) ⟨m, fun _ => 0, ρ⟩ (fun r => ∀ c : Dev nD,
      r.2.mem ((c.tc : Thread nD τ).loc main_v89) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  RunAt.run_post m ρ (fun s h c =>
    ⟨(h c _ (mem_uc main_v89 (by decide))).trans (result m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)

end Cert.KernelIdeal.Result

end
-- ==== Proof.RefValue.lean ====
/-
  The reference program's result as the same function of its arguments. Its run ends with the result array at the
  composed term of its host operations; in that term each dense layer is spelt as a general dot product, a bias
  broadcast in two steps, and a maximum against a broadcast zero. Over the extended reals these are the product, the
  bias laid along the rows and the cut at zero, so the term is `network` of the arguments: the aggregation, the edge
  weights and the mean pool are spelt in the reference exactly as in the kernel program.
-/
import proofs.«176493_j81621558493696_1_alg».proof.Proof.RefRun
import proofs.«176493_j81621558493696_1_alg».proof.Proof.Stages

set_option maxRecDepth 16384

noncomputable section

namespace Cert.ReferenceIdeal.RefResult

open Idealize.ShloMosaic Idealize.ShloMosaic.TcCoe Idealize.SL.Sem
open Idealize.ShloMosaic.ValueIdx Cert.LayoutLib Cert.DenseLib Cert.RowBlocks

section Folds
open Cert.ReferenceIdeal Cert.ReferenceIdeal.Gen Cert.KernelIdeal.Stages

/-! The reference's spelling of each stage is that stage (the two programs print the same operations). -/

theorem fold_src (ei : IVec S2x1600000 32) : concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0 = src ei := rfl

theorem fold_dst (ei : IVec S2x1600000 32) : concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0 = dst ei := rfl

theorem fold_wrap (v : IVec S1700000 32) : broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v) = wrap v := rfl

theorem fold_degree (d : IVec S1700000 32) : Host.scatterAdd (F := Ideal) (φ := .f32) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32)) = degree d := rfl

theorem fold_inv (d : IVec S1700000 32) : select (cmpf (F := Ideal) (φ := .f32) .ogt (degree d) (broadcastInDim S100000 ![] bcast_S_S100000 (constant (F := Ideal) S_ .f32 0x00000000#32))) (Host.rsqrt (F := Ideal) (φ := .f32) (degree d)) (broadcastInDim S100000 ![] bcast_S_S100000 (id (constant (F := Ideal) S_ .f32 0x00000000#32))) = invSqrtDeg d := rfl

theorem fold_norm (ei : IVec S2x1600000 32) : mulf (Host.gather gather_S100000_S1700000x1_S1700000_n_0_n_n_0_1_1 (invSqrtDeg (dst ei)) (wrap (src ei))) (Host.gather gather_S100000_S1700000x1_S1700000_n_0_n_n_0_1_1 (invSqrtDeg (dst ei)) (wrap (dst ei))) = Cert.KernelIdeal.Stages.norm ei := rfl

theorem fold_aggregate (s d : IVec S1700000 32) (n : FVec Ideal S1700000 .f32) (h : FVec Ideal S100000x64 .f32) : Host.scatterAdd (F := Ideal) (φ := .f32) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 n))) = aggregate s d n h := rfl

theorem fold_pool (batch : IVec S100000 32) (h : FVec Ideal S100000x64 .f32) : Host.divf (F := Ideal) (φ := .f32) (Host.scatterAdd (F := Ideal) (φ := .f32) scatter_S256x64_S100000x1_S100000x64_1_0_0_1 (broadcastInDim S256x64 ![] bcast_S_S256x64 (constant (F := Ideal) S_ .f32 0x00000000#32)) (broadcastInDim S100000x1 ![0] bcast_S100000_S100000x1_0 batch) h) (broadcastInDim S256x64 ![0, 1] bcast_S256x1_S256x64_0_1 (broadcastInDim S256x1 ![0] bcast_S256_S256x1_0 (maximumf (Host.scatterAdd (F := Ideal) (φ := .f32) scatter_S256_S100000x1_S100000_n_0_0_1 (broadcastInDim S256 ![] bcast_S_S256 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S256 ![] bcast_S_S256 (constant (F := Ideal) S_ .f32 0x3F800000#32))))) = meanPool batch h := rfl

end Folds

set_option maxHeartbeats 4000000 in
/-- The reference's result term is the network of its arguments. -/
theorem result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v98 (F := Ideal) m' c
      = Cert.KernelIdeal.Stages.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) := by
  unfold Cert.ReferenceIdeal.ValueP.res_main_v98
  simp only [dotGeneral_eq_mm (M := 100000) (K := 64) (N := 64) Cert.ReferenceIdeal.dot_S100000x64_S64x64_S100000x64_1_0_0_1_n_n rfl,
    dotGeneral_eq_mm (M := 256) (K := 64) (N := 2) Cert.ReferenceIdeal.dot_S256x64_S64x2_S256x2_1_0_0_1_n_n rfl,
    addf_eq_plus, fold_src, fold_dst]
  rw [maximumf_bcast_zero, maximumf_bcast_zero, broadcastInDim_eq_rows, broadcastInDim_eq_rows, broadcastInDim_eq_rows, broadcastInDim_eq_rows]
  rw [fold_wrap, fold_wrap, fold_degree, fold_inv, fold_norm, fold_aggregate, fold_aggregate, fold_aggregate, fold_pool]
  rfl

end Cert.ReferenceIdeal.RefResult

end
-- ==== Proof.lean ====
/-
  A three-layer graph convolution network with a mean pool and an affine head, computed by a program whose dense stages
  run as five kernel regions (the products with the weight matrices, the biases and the cuts at zero, ten thousand node
  rows at a time) between stretches of host operations (the edge weights, the gathers and scatter-sums along the edges,
  the pool), against a reference that computes every stage with host operations.
  At the extended reals both programs compute ONE function of the arguments, `network` (Proof/Stages.lean): a change of
  float format is the identity, a product accumulated into zeros and a general dot product are the same sum over the
  shared axis, a bias row broadcast down the rows is the same array however the broadcast is spelt, and a block of rows
  of a dense layer's output depends only on that block of rows of its input — so the kernel program's blockwise results
  are the whole-array layers (Proof/Region0 … Region4, Proof/KernelValue.lean). The stages outside the dense layers are
  the same operations in both programs. No law of arithmetic beyond these readings is used, so the precondition is not
  opened.
  The frames of the two kernel programs are the generated ones; the reference's frame is its run with the result dropped.
-/
import proofs.«176493_j81621558493696_1_alg».proof.Defs
import proofs.«176493_j81621558493696_1_alg».proof.Proof.Gen.Kernel
import proofs.«176493_j81621558493696_1_alg».proof.Proof.Gen.Kernel.Skeleton
import proofs.«176493_j81621558493696_1_alg».proof.Proof.Gen.Kernel.Launch
import proofs.«176493_j81621558493696_1_alg».proof.Proof.Gen.Kernel.Points
import proofs.«176493_j81621558493696_1_alg».proof.Proof.Gen.Kernel.Frame
import proofs.«176493_j81621558493696_1_alg».proof.Proof.Gen.KernelIdeal
import proofs.«176493_j81621558493696_1_alg».proof.Proof.Gen.KernelIdeal.Skeleton
import proofs.«176493_j81621558493696_1_alg».proof.Proof.Gen.KernelIdeal.Launch
import proofs.«176493_j81621558493696_1_alg».proof.Proof.Gen.KernelIdeal.Points
import proofs.«176493_j81621558493696_1_alg».proof.Proof.Gen.KernelIdeal.Frame
import proofs.«176493_j81621558493696_1_alg».proof.Proof.Gen.ReferenceIdeal
import proofs.«176493_j81621558493696_1_alg».proof.Proof.Gen.Pre_finite_inputs
import proofs.«176493_j81621558493696_1_alg».proof.Proof.KernelValue
import proofs.«176493_j81621558493696_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the result array at `network` of their arguments, which agree. -/
theorem algebraic : Cert.algebraic_KernelIdeal_ReferenceIdeal := by
  intro m ρ m' ρ' _ hagree
  refine ⟨fun c => Cert.KernelIdeal.Stages.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  exact (Cert.ReferenceIdeal.RefResult.result m' c).trans (by rw [h0, h1, h2, h3, h4, h5, h6, h7, h8, h9, h10])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
